-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2048x512 : Shape := ⟨2, ![2048, 512]⟩
abbrev S512x512 : Shape := ⟨2, ![512, 512]⟩
abbrev S2048x1 : Shape := ⟨2, ![2048, 1]⟩
abbrev S1x512 : Shape := ⟨2, ![1, 512]⟩

abbrev nBuf : Space → Nat
  | .hbm => 14
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x8192, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S8192x8192.size a
  hwx0_4 : ∀ i : grid0.Coords, EltTy.bits .f32 = 32 ∨ (Rect.block (s := S8192x8192) S2048x512.size (cc0_transform_4 i) (hinb0_4 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Spec.lean ====
/-
  The radial-basis-function Gram matrix of two families of 8192 points in dimension 512, as ONE function of the two
  argument arrays, over the extended reals.  Entry (r, s) is

      exp( -1 · max( (|x_r|² + |y_s|²) - 2 · <x_r, y_s> , 0 ) ),

  where |x_r|² is the initial word of a sum (the word of 0.0) plus the sum of the squares of row r, and <x_r, y_s> the sum
  over the 512 coordinates of the products.  The three float words (2.0, 0.0, -1.0) are kept as the extended reals their
  patterns denote and are never evaluated: both programs carry the same words.
-/
import Idealize.ShloMosaic.PureOps.Ideal
import Idealize.ShloMosaic.Lib.ValueIdx

noncomputable section

open scoped BigOperators

namespace Cert.Rbf

open Idealize.ShloMosaic Idealize.ShloMosaic.ValueIdx

/-- A family of 8192 points of dimension 512: row `r` is the point `x_r`. -/
abbrev Pts : Type := (⟨2, ![8192, 512]⟩ : Shape).Idx → EReal

/-- The squared norm of point `r`: the sum of the squares of its coordinates, started from the word of 0.0. -/
def sqNorm (x : Pts) (r : Fin 8192) : EReal :=
  Ideal.ofBits .f32 0x00000000#32 + ∑ k : Fin 512, x (ix2 r k) * x (ix2 r k)

/-- The inner product of point `r` of `x` with point `s` of `y`. -/
def inner (x y : Pts) (r s : Fin 8192) : EReal :=
  ∑ k : Fin 512, x (ix2 r k) * y (ix2 s k)

/-- One entry from the two squared norms `a`, `b` and the inner product `d`: the squared distance expanded as
    `(a + b) - 2 d`, clamped below at 0, negated, exponentiated. -/
def entry (a b d : EReal) : EReal :=
  Ideal.exp (Ideal.ofBits .f32 0xBF800000#32
    * max ((a + b) - Ideal.ofBits .f32 0x40000000#32 * d) (Ideal.ofBits .f32 0x00000000#32))

/-- The Gram matrix: entry `(i 0, i 1)` from the squared norms of `x_(i 0)`, `y_(i 1)` and their inner product. -/
def gram (x y : Pts) : (⟨2, ![8192, 8192]⟩ : Shape).Idx → EReal := fun i =>
  entry (sqNorm x (i 0)) (sqNorm y (i 1)) (inner x y (i 0) (i 1))

end Cert.Rbf

end
-- ==== Proof.RefGram.lean ====
/-
  The reference program's result, index by index, is the Gram matrix `Cert.Rbf.gram` of its two arguments.
  Reading the program's last stage outermost first: the exponential of (-1) times the maximum with 0 of
  (|x_r|² broadcast along rows + |y_s|² broadcast along columns) - 2 · (x yᵀ)(r, s); the two squared norms are host
  sums over the second axis started from the word of 0.0, and the matrix product one contraction over the 512
  coordinates.  The composed index maps of the broadcasts select row `i 0` of `x` and row `i 1` of `y`.
-/
import proofs.«164730_j65481071397762_2_alg».proof.Proof.Gen.ReferenceIdeal.Read
import proofs.«164730_j65481071397762_2_alg».proof.Proof.Spec

noncomputable section

open scoped BigOperators

namespace Cert.Rbf.Ref

open Cert.ReferenceIdeal Cert.ReferenceIdeal.Read Idealize.ShloMosaic Idealize.ShloMosaic.ValueIdx

/-- The reference's last stage is the Gram matrix of its arguments. -/
theorem stage_eq_gram (x y : (⟨S8192x512, .f32⟩ : BufTy).Contents (Elt Ideal)) :
    val_main_v17 (F := Ideal) x y = Cert.Rbf.gram x y := by
  funext i
  -- the broadcasts' composed index maps: the squared norm of `x` is read at row `i 0`, that of `y` at row `i 1`
  have e1 : ∀ k : Fin 512, idx_main_v1 (idx_main_v5 (idx_main_v7 i)) k = ix2 (i 0) k := fun k =>
    funext fun a => Fin.ext (by match a with | ⟨0, _⟩ => rfl | ⟨1, _⟩ => rfl)
  have e3 : ∀ k : Fin 512, idx_main_v3 (idx_main_v6 (idx_main_v8 i)) k = ix2 (i 1) k := fun k =>
    funext fun a => Fin.ext (by match a with | ⟨0, _⟩ => rfl | ⟨1, _⟩ => rfl)
  -- the contraction's operand indices: row `i 0` of `x` against row `i 1` of `y`
  have el : ∀ k : Fin 512, lidx_main_v4 i k = ix2 (i 0) k := fun k =>
    funext fun a => Fin.ext (by match a with | ⟨0, _⟩ => rfl | ⟨1, _⟩ => rfl)
  have er : ∀ k : Fin 512, ridx_main_v4 i k = ix2 (i 1) k := fun k =>
    funext fun a => Fin.ext (by match a with | ⟨0, _⟩ => rfl | ⟨1, _⟩ => rfl)
  rw [val_main_v17_apply, val_main_v16_apply, val_main_v15_apply, val_main_cst_3_apply, val_main_v14_apply,
    val_main_v13_apply, val_main_cst_2_apply, val_main_v12_apply, val_main_v9_apply, val_main_v7_apply,
    val_main_v5_apply, val_main_v1_apply, val_main_v8_apply, val_main_v6_apply, val_main_v3_apply,
    val_main_v11_apply, val_main_v10_apply, val_main_cst_1_apply, val_main_v4_apply]
  simp only [val_main_v0_apply, val_main_v2_apply, val_main_cst_apply, val_main_cst_0_apply, e1, e3, el, er]
  rfl

end Cert.Rbf.Ref

end
-- ==== Proof.EntryArrays.lean ====
/-
  What the kernel's four input windows find in their arrays when the region is entered, over the extended reals.
  The host prefix converts each argument to a narrower float format (the identity on extended reals), and computes
  for each argument the squared norms of its rows — a sum over the second axis started from the word of 0.0 — laid out
  as a column `[8192, 1]`; the second argument's column is then transposed to a row `[1, 8192]`.  So:
    * the arrays of windows 0 and 1 are `x` and `y` themselves, entry by entry;
    * the array of window 2 holds `|x_r|²` at `(r, 0)`;
    * the array of window 3 holds `|y_s|²` at `(0, s)`.
  The column of squared norms is the same chain of host operations the reference program applies to its own argument,
  so it is read through the reference's stage lemmas.
-/
import proofs.«164730_j65481071397762_2_alg».proof.Proof.Gen.KernelIdeal.Frame
import proofs.«164730_j65481071397762_2_alg».proof.Proof.Gen.ReferenceIdeal.Read
import proofs.«164730_j65481071397762_2_alg».proof.Proof.Spec
import Idealize.ShloMosaic.Lib.ValueLayout
import Idealize.ShloMosaic.Lib.StableHlo.Run

noncomputable section

open scoped BigOperators

namespace Cert.Rbf.Kern

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The first argument as launched on core `c`. -/
abbrev argX (c : Dev nD) : Cert.Rbf.Pts := m ((c : Thread nD τ).loc main_arg0)
/-- The second argument as launched on core `c`. -/
abbrev argY (c : Dev nD) : Cert.Rbf.Pts := m ((c : Thread nD τ).loc main_arg1)

/-- The column of squared norms of the rows of `z`, read at row `r`: the squared norm of point `r`. -/
theorem sqColumn_apply (z : Cert.Rbf.Pts) (r : Fin 8192) (u : Fin 1) :
    Cert.ReferenceIdeal.Read.val_main_v5 (F := Ideal) z (ix2 r u) = Cert.Rbf.sqNorm z r := by
  have e1 : ∀ k : Fin 512, Cert.ReferenceIdeal.Read.idx_main_v1 (Cert.ReferenceIdeal.Read.idx_main_v5 (ix2 r u)) k = ix2 r k :=
    fun k => funext fun a => Fin.ext (by match a with | ⟨0, _⟩ => rfl | ⟨1, _⟩ => rfl)
  rw [Cert.ReferenceIdeal.Read.val_main_v5_apply, Cert.ReferenceIdeal.Read.val_main_v1_apply]
  simp only [Cert.ReferenceIdeal.Read.val_main_v0_apply, Cert.ReferenceIdeal.Read.val_main_cst_apply, e1]
  rfl

/-- Window 0's array is the first argument: the format conversion is the identity on extended reals. -/
theorem entry_x (c : Dev nD) (j : S8192x512.Idx) : V m c main_v0 j = argX m c j := by
  have e : (V m c main_v0 : S8192x512.Idx → EReal)
      = truncf (F := Ideal) .bf16 (m ((c : Thread nD τ).loc main_arg0)) bitsLt_bf16_f32 := by
    dsimp only [Gen.V, Gen.hostOps0]; after_results
  exact congrFun e j

/-- Window 1's array is the second argument. -/
theorem entry_y (c : Dev nD) (j : S8192x512.Idx) : V m c main_v1 j = argY m c j := by
  have e : (V m c main_v1 : S8192x512.Idx → EReal)
      = truncf (F := Ideal) .bf16 (m ((c : Thread nD τ).loc main_arg1)) bitsLt_bf16_f32 := by
    dsimp only [Gen.V, Gen.hostOps0]; after_results
  exact congrFun e j

/-- Window 2's array holds the squared norm of point `r` of the first argument at `(r, 0)`. -/
theorem entry_xsq (c : Dev nD) (r : Fin 8192) (u : Fin 1) :
    V m c main_v4 (ix2 r u) = Cert.Rbf.sqNorm (argX m c) r := by
  have e : (V m c main_v4 : S8192x1.Idx → EReal)
      = Cert.ReferenceIdeal.Read.val_main_v5 (F := Ideal) (m ((c : Thread nD τ).loc main_arg0)) := by
    dsimp only [Gen.V, Gen.hostOps0]; after_results; rfl
  exact (congrFun e (ix2 r u)).trans (sqColumn_apply _ r u)

/-- Window 3's array holds the squared norm of point `s` of the second argument at `(0, s)`: the column transposed. -/
theorem entry_ysq (c : Dev nD) (u : Fin 1) (s : Fin 8192) :
    V m c main_v8 (ix2 u s) = Cert.Rbf.sqNorm (argY m c) s := by
  have e : (V m c main_v8 : S1x8192.Idx → EReal)
      = transpose S1x8192 [1, 0] (Cert.ReferenceIdeal.Read.val_main_v5 (F := Ideal) (m ((c : Thread nD τ).loc main_arg1)))
          transposes_S8192x1_S1x8192_1_0 := by
    dsimp only [Gen.V, Gen.hostOps0]; after_results; rfl
  refine (congrFun e (ix2 u s)).trans ?_
  exact (transpose_ix2_apply _ transposes_S8192x1_S1x8192_1_0 u s).trans (sqColumn_apply _ s u)

/-- The same at any index of the column: its row coordinate names the point. -/
theorem entry_xsq_idx (c : Dev nD) (j : S8192x1.Idx) : V m c main_v4 j = Cert.Rbf.sqNorm (argX m c) (j 0) :=
  (congrArg (V m c main_v4) (eq_ix2 j)).trans (entry_xsq m c (j 0) (j 1))

/-- The same at any index of the row: its column coordinate names the point. -/
theorem entry_ysq_idx (c : Dev nD) (j : S1x8192.Idx) : V m c main_v8 j = Cert.Rbf.sqNorm (argY m c) (j 1) :=
  (congrArg (V m c main_v8) (eq_ix2 j)).trans (entry_ysq m c (j 0) (j 1))

end Cert.Rbf.Kern

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.Payload.lean ====
/-
  The value the kernel body stores, read at an index `(p, q)` of the `[2048, 512]` output block, over the extended
  reals: from the body's four loaded blocks — a block `a` of 2048 points, a block `b` of 512 points, the column `u` of
  the first block's squared norms and the row `v` of the second block's — it is

      entry (u (p, 0)) (v (0, q)) (Σ_k a (p, k) · b (q, k)).

  The body's matrix product contracts the second axis of both operands into a zero accumulator, so at `(p, q)` it is the
  plain sum over the 512 coordinates of the products; the column is broadcast along rows and the row along columns; the
  rest is pointwise.
-/
import proofs.«164730_j65481071397762_2_alg».proof.Proof.Gen.KernelIdeal.Skeleton
import proofs.«164730_j65481071397762_2_alg».proof.Proof.Spec
import proofs.«164730_j65481071397762_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Rbf.Kern

open Cert.KernelIdeal Cert.KernelIdeal.Gen Idealize.ShloMosaic Idealize.ShloMosaic.ValueIdx

/-- The body's contraction record: both operands contract their second axis; the rows of the first and of the second
    operand index the result. -/
abbrev dotD : DotDims S2048x512 S512x512 S2048x512 := dot_S2048x512_S512x512_S2048x512_1_1_0_0_n_n

theorem dot_lhs0 (i : S2048x512.Idx) (k : dotD.contr.Idx) : (dotD.lhsIdx i k 0).val = (i 0).val := by
  unfold DotDims.lhsIdx
  rw [dif_neg (show ¬(0 : Fin S2048x512.rank) ∈ dotD.lhsBatch by decide),
    dif_pos (show (0 : Fin S2048x512.rank) ∈ dotD.lhsNonContracting by decide)]
  rfl

theorem dot_lhs1 (i : S2048x512.Idx) (k : dotD.contr.Idx) : (dotD.lhsIdx i k 1).val = (k ⟨0, by decide⟩).val :=
  dotD.lhsIdx_val_of_single rfl i k

theorem dot_rhs0 (i : S2048x512.Idx) (k : dotD.contr.Idx) : (dotD.rhsIdx i k 0).val = (i 1).val := by
  unfold DotDims.rhsIdx
  rw [dif_neg (show ¬(0 : Fin S512x512.rank) ∈ dotD.rhsBatch by decide),
    dif_pos (show (0 : Fin S512x512.rank) ∈ dotD.rhsNonContracting by decide)]
  rfl

theorem dot_rhs1 (i : S2048x512.Idx) (k : dotD.contr.Idx) : (dotD.rhsIdx i k 1).val = (k ⟨0, by decide⟩).val :=
  dotD.rhsIdx_val_of_single rfl i k

/-- The body's matrix product into the zero accumulator, at `(p, q)`: the inner product of row `p` of the first operand
    with row `q` of the second. -/
theorem matmul_at (a : FVec Ideal S2048x512 .bf16) (b : FVec Ideal S512x512 .bf16) (p : Fin 2048) (q : Fin 512) :
    matmul dotD none a b (constant (F := Ideal) S2048x512 .f32 0x00000000#32) (ix2 p q)
      = ∑ k : Fin 512, a (ix2 p k) * b (ix2 q k) := by
  simp only [matmul]
  rw [Ideal.matmul_constant_zero_apply, ← Equiv.sum_comp (contrEquiv1 dotD 512 rfl rfl).symm]
  refine Finset.sum_congr rfl fun k _ => ?_
  have hk := contrEquiv1_symm_val dotD 512 rfl rfl k
  have el : dotD.lhsIdx (ix2 p q) ((contrEquiv1 dotD 512 rfl rfl).symm k) = ix2 p k := funext fun ax => Fin.ext (by
    match ax with
    | ⟨0, _⟩ => exact dot_lhs0 _ _
    | ⟨1, _⟩ => exact (dot_lhs1 _ _).trans hk)
  have er : dotD.rhsIdx (ix2 p q) ((contrEquiv1 dotD 512 rfl rfl).symm k) = ix2 q k := funext fun ax => Fin.ext (by
    match ax with
    | ⟨0, _⟩ => exact dot_rhs0 _ _
    | ⟨1, _⟩ => exact (dot_rhs1 _ _).trans hk)
  rw [el, er]

/-- The stored value at `(p, q)`. -/
theorem payload_at (a : Vec Ideal S2048x512 .bf16) (b : Vec Ideal S512x512 .bf16) (u : Vec Ideal S2048x1 .f32)
    (v : Vec Ideal S1x512 .f32) (p : Fin 2048) (q : Fin 512) :
    k0_pay1 (F := Ideal) a b u v (ix2 p q)
      = Cert.Rbf.entry (u (ix2 p (0 : Fin 1))) (v (ix2 (0 : Fin 1) q)) (∑ k : Fin 512, a (ix2 p k) * b (ix2 q k)) := by
  have hu : broadcastTo S2048x512 u broadcasts_S2048x1_S2048x512 (ix2 p q) = u (ix2 p (0 : Fin 1)) :=
    Cert.Lib.Columns.broadcastTo_a1_ab_apply u _ p q
  have hv : broadcastTo S2048x512 v broadcasts_S1x512_S2048x512 (ix2 p q) = v (ix2 (0 : Fin 1) q) :=
    broadcastTo_1b_ab_apply v _ p q
  unfold k0_pay1
  simp only [shapeCast_self]
  unfold Cert.Rbf.entry
  rw [← hu, ← hv, ← matmul_at a b p q]
  rfl

end Cert.Rbf.Kern

end
-- ==== Proof.GramArray.lean ====
/-
  From blocks to the whole array.  The grid has 4 × 16 points; point `t = (i, j)` reads rows `2048 i … 2048 i + 2047` of
  `x` and of the column of squared norms of `x`, rows `512 j … 512 j + 511` of `y` and the same columns of the row of
  squared norms of `y`, and writes block `(i, j)` of the `[8192, 8192]` result.  Entry `(p, q)` of what it writes is
  `entry` of the squared norms of points `2048 i + p` and `512 j + q` and their inner product — the Gram matrix at the
  array index `(2048 i + p, 512 j + q)` — and the 64 blocks tile the result, so the array ends holding the Gram matrix.
-/
import proofs.«164730_j65481071397762_2_alg».proof.Proof.Gen.KernelIdeal.Value
import proofs.«164730_j65481071397762_2_alg».proof.Proof.EntryArrays
import proofs.«164730_j65481071397762_2_alg».proof.Proof.Payload

noncomputable section

open scoped BigOperators

namespace Cert.Rbf.Kern

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl

/-- The block indices of the five windows at a grid point, decided over the 64 points: the blocks of `x` and of its
    squared norms follow the output's row block, those of `y` and of its squared norms the output's column block,
    and every other block coordinate is 0. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2) :=
  (by decide +kernel : ∀ t : Fin grid0.N, _)

/-- Every one of the 4 × 16 output blocks is some point's. -/
theorem block_onto : ∀ (q0 : Fin 4) (q1 : Fin 16), ∃ t : Fin cfg0.N, win0_4.index t = ![q0.val, q1.val] :=
  (by decide +kernel : ∀ (q0 : Fin 4) (q1 : Fin 16), ∃ t : Fin grid0.N, win0_4.index t = ![q0.val, q1.val])

/-- What point `t` writes back is block `t` of the Gram matrix of the arguments. -/
theorem flushed_eq_gram (c : Dev nD) (t : Fin cfg0.N) :
    (dats m 0 c).flushed 4 t
      = ((cfg0.win 4).blk t).view.read (Elt Ideal) (Cert.Rbf.gram (argX m c) (argY m c)) := by
  rw [Cert.KernelIdeal.Value.flushed4]
  unfold out0_4
  rw [View.canon_unit_zero origin2]
  simp only [View.ld_unit_zero (S := S2048x512) origin2, View.ld_unit_zero (S := S512x512) origin2,
    View.ld_unit_zero (S := S2048x1) origin2, View.ld_unit_zero (S := S1x512) origin2]
  obtain ⟨e00, e01, e10, e11, e20, e21, e30, e31⟩ := block_indices t
  funext j
  obtain ⟨p, q, rfl⟩ : ∃ (p : Fin 2048) (q : Fin 512), j = ix2 p q := ⟨j 0, j 1, eq_ix2 j⟩
  show k0_pay1 (iblk m c 0 t) (iblk m c 1 t) (iblk m c 2 t) (iblk m c 3 t) (ix2 p q)
    = Cert.Rbf.gram (argX m c) (argY m c) (((cfg0.win 4).blk t).view.emb (ix2 p q))
  refine (payload_at (iblk m c 0 t) (iblk m c 1 t) (iblk m c 2 t) (iblk m c 3 t) p q).trans ?_
  unfold Cert.Rbf.gram
  -- the squared norm of the block's row `p` is that of point `2048 i + p`
  have hx : iblk m c 2 t (ix2 p (0 : Fin 1))
      = Cert.Rbf.sqNorm (argX m c) ((((cfg0.win 4).blk t).view.emb (ix2 p q)) 0) := by
    refine (entry_xsq_idx m c (((cfg0.win 2).blk t).view.emb (ix2 p (0 : Fin 1)))).trans ?_
    refine congrArg (Cert.Rbf.sqNorm (argX m c)) (Fin.ext ?_)
    show win0_2.index t (0 : Fin 2) * 2048 + 1 * p.val = win0_4.index t (0 : Fin 2) * 2048 + 1 * p.val
    rw [e20]
  -- the squared norm of the block's column `q` is that of point `512 j + q`
  have hy : iblk m c 3 t (ix2 (0 : Fin 1) q)
      = Cert.Rbf.sqNorm (argY m c) ((((cfg0.win 4).blk t).view.emb (ix2 p q)) 1) := by
    refine (entry_ysq_idx m c (((cfg0.win 3).blk t).view.emb (ix2 (0 : Fin 1) q))).trans ?_
    refine congrArg (Cert.Rbf.sqNorm (argY m c)) (Fin.ext ?_)
    show win0_3.index t (1 : Fin 2) * 512 + 1 * q.val = win0_4.index t (1 : Fin 2) * 512 + 1 * q.val
    rw [e31]
  rw [hx, hy]
  -- the block rows' inner product is that of the two points, term by term
  refine congrArg (Cert.Rbf.entry _ _) ?_
  unfold Cert.Rbf.inner
  refine Finset.sum_congr rfl fun k _ => ?_
  have ha : iblk m c 0 t (ix2 p k) = argX m c (ix2 ((((cfg0.win 4).blk t).view.emb (ix2 p q)) 0) k) := by
    refine (entry_x m c (((cfg0.win 0).blk t).view.emb (ix2 p k))).trans ?_
    refine congrArg (argX m c) (funext fun ax => Fin.ext ?_)
    match ax with
    | ⟨0, _⟩ =>
      show win0_0.index t (0 : Fin 2) * 2048 + 1 * p.val = win0_4.index t (0 : Fin 2) * 2048 + 1 * p.val
      rw [e00]
    | ⟨1, _⟩ =>
      show win0_0.index t (1 : Fin 2) * 512 + 1 * k.val = k.val
      rw [e01]; omega
  have hb : iblk m c 1 t (ix2 q k) = argY m c (ix2 ((((cfg0.win 4).blk t).view.emb (ix2 p q)) 1) k) := by
    refine (entry_y m c (((cfg0.win 1).blk t).view.emb (ix2 q k))).trans ?_
    refine congrArg (argY m c) (funext fun ax => Fin.ext ?_)
    match ax with
    | ⟨0, _⟩ =>
      show win0_1.index t (0 : Fin 2) * 512 + 1 * q.val = win0_4.index t (1 : Fin 2) * 512 + 1 * q.val
      rw [e10]
    | ⟨1, _⟩ =>
      show win0_1.index t (1 : Fin 2) * 512 + 1 * k.val = k.val
      rw [e11]; omega
  rw [ha, hb]

/-- An index of the result is in point `t`'s block iff each coordinate is in the block's range on its axis. -/
theorem mem_block (t : Fin cfg0.N) (i : S8192x8192.Idx) :
    i ∈ ((cfg0.win 4).blk t).view.set
      ↔ ∀ a : Fin 2, win0_4.index t a * S2048x512.size a ≤ (i a).val
          ∧ (i a).val < win0_4.index t a * S2048x512.size a + S2048x512.size a := by
  show i ∈ ((View.whole main_v9).slice (win0_4.rect t)).set ↔ _
  rw [View.set_slice_whole, Rect.mem_set_unit]
  exact Iff.rfl

/-- The 64 blocks cover the result: index `(r, s)` lies in the block of the point with block indices
    `(r / 2048, s / 512)`. -/
theorem blocks_cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := block_onto ⟨(i 0).val / 2048, by omega⟩ ⟨(i 1).val / 512, by omega⟩
  have q0 : win0_4.index t (0 : Fin 2) = (i 0).val / 2048 := congrFun ht 0
  have q1 : win0_4.index t (1 : Fin 2) = (i 1).val / 512 := congrFun ht 1
  refine ⟨t, flush0_4 t, ?_⟩
  rw [mem_block]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 512 ≤ (i 1).val ∧ (i 1).val < win0_4.index t (1 : Fin 2) * 512 + 512
    omega

/-- The result array after the run is the Gram matrix of the arguments. -/
theorem result_eq_gram (c : Dev nD) :
    (dats m 0 c).arrAt 4 cfg0.N = Cert.Rbf.gram (argX m c) (argY m c) :=
  (dats m 0 c).arrAt_eq_of_cover 4 (Cert.Rbf.gram (argX m c) (argY m c)) (fun t _ => flushed_eq_gram m c t) blocks_cover

/-- The kernel's run: every weakly fair execution terminates with the result at the Gram matrix of the arguments, the
    arguments unchanged. -/
theorem run_gram : θ_run defs (onTc (τ := τ) (main (F := Ideal))) ⟨m, fun _ => 0, ρ⟩ fun r => ∀ c : Dev nD,
      r.2.mem ((c : Thread nD τ).loc main_v9) = Cert.Rbf.gram (argX m c) (argY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq_gram m c), (h c).2⟩)
    (Cert.KernelIdeal.Value.run_blocks m ρ)

end Cert.Rbf.Kern

end
-- ==== Proof.lean ====
/-
  The radial-basis-function Gram matrix of two families `x`, `y` of 8192 points in dimension 512,

      K(r, s) = exp( -1 · max( (|x_r|² + |y_s|²) - 2 · <x_r, y_s> , 0 ) ),

  computed by a blocked kernel and by a plain array program; over the extended reals the two are the same function.

  The kernel computes the squared norms of the rows of `x` and of `y` once on the host — as a column and as a row —
  and converts the points to a narrower float format (the identity on extended reals).  Its grid has 4 × 16 points; point
  `(i, j)` multiplies the block of 2048 points of `x` with the block of 512 points of `y` (contracting the coordinate
  axis, into a zero accumulator), adds the two blocks of squared norms broadcast along rows and along columns,
  subtracts twice the product, clamps at 0, negates and exponentiates, and writes block `(i, j)` of the result.
  The reference forms the same expression on whole arrays.

  Both sides carry the same float words for 2.0, 0.0 and -1.0, the same sums over the 512 coordinates and the same
  exponential, so no law of arithmetic beyond `0 + s = s` for the zero accumulator is needed, and finiteness of
  the inputs is never used.

  The modules: `Spec` states `K` as one function `gram` of the argument arrays; `RefGram` reads the reference's
  last stage as `gram`; `EntryArrays` reads what the kernel's windows find in their arrays; `Payload` reads the body's
  stored value at a block index; `GramArray` identifies each written block with the block of `gram` and tiles the result.
  The three frames are the generated ones (the reference's is its generated run with the result dropped), and the
  idealization rewrote nothing, so its claim is `True`.
-/
import proofs.«164730_j65481071397762_2_alg».proof.Defs
import proofs.«164730_j65481071397762_2_alg».proof.Proof.Gen.Kernel
import proofs.«164730_j65481071397762_2_alg».proof.Proof.Gen.Kernel.Skeleton
import proofs.«164730_j65481071397762_2_alg».proof.Proof.Gen.Kernel.Launch
import proofs.«164730_j65481071397762_2_alg».proof.Proof.Gen.Kernel.Points
import proofs.«164730_j65481071397762_2_alg».proof.Proof.Gen.Kernel.Frame
import proofs.«164730_j65481071397762_2_alg».proof.Proof.Gen.KernelIdeal
import proofs.«164730_j65481071397762_2_alg».proof.Proof.Gen.KernelIdeal.Skeleton
import proofs.«164730_j65481071397762_2_alg».proof.Proof.Gen.KernelIdeal.Launch
import proofs.«164730_j65481071397762_2_alg».proof.Proof.Gen.KernelIdeal.Points
import proofs.«164730_j65481071397762_2_alg».proof.Proof.Gen.KernelIdeal.Frame
import proofs.«164730_j65481071397762_2_alg».proof.Proof.Gen.ReferenceIdeal
import proofs.«164730_j65481071397762_2_alg».proof.Proof.Gen.Pre_finite_inputs
import proofs.«164730_j65481071397762_2_alg».proof.Proof.Gen.KernelIdeal.Value
import proofs.«164730_j65481071397762_2_alg».proof.Proof.Gen.ReferenceIdeal.Run
import proofs.«164730_j65481071397762_2_alg».proof.Proof.Gen.ReferenceIdeal.Read
import proofs.«164730_j65481071397762_2_alg».proof.Proof.RefGram
import proofs.«164730_j65481071397762_2_alg».proof.Proof.GramArray
import Idealize.ShloMosaic.Adequacy
import Idealize.ShloMosaic.Init

noncomputable section

namespace Cert.Proof

open Idealize.ShloMosaic Idealize.ShloMosaic.TcCoe Idealize.SL.Sem

/-- The kernel as printed runs, and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on `x` and `y`, both programs end with the Gram matrix `gram x y`: the kernel by its
    blocks, the reference by its last stage. -/
theorem algebraic : Cert.algebraic_KernelIdeal_ReferenceIdeal := by
  intro m ρ m' ρ' _ hagree
  refine ⟨fun c => Cert.Rbf.gram (Cert.Rbf.Kern.argX m c) (Cert.Rbf.Kern.argY m c), Cert.Rbf.Kern.run_gram m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Rbf.Ref.stage_eq_gram, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
